-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x2048 : Shape := ⟨2, ![32, 2048]⟩
abbrev S1024x1024 : Shape := ⟨2, ![1024, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32x2048x1024 .f32) (main_arg1 : IVec S32x2048 1) (main_arg2 : FVec F S1024x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32x2048x1024 : Shape := ⟨3, ![32, 2048, 1024]⟩
abbrev S32x2048 : Shape := ⟨2, ![32, 2048]⟩
abbrev S1024x1024 : Shape := ⟨2, ![1024, 1024]⟩
abbrev S32x2048x1 : Shape := ⟨3, ![32, 2048, 1]⟩
abbrev S32x1x1024 : Shape := ⟨3, ![32, 1, 1024]⟩
abbrev S1x2048x1024 : Shape := ⟨3, ![1, 2048, 1024]⟩
abbrev S1x2048x1 : Shape := ⟨3, ![1, 2048, 1]⟩
abbrev S1x1x1024 : Shape := ⟨3, ![1, 1, 1024]⟩
abbrev S2048x1024 : Shape := ⟨2, ![2048, 1024]⟩
abbrev S2048x1 : Shape := ⟨2, ![2048, 1]⟩
abbrev S1024 : Shape := ⟨1, ![1024]⟩
abbrev S1x1024 : Shape := ⟨2, ![1, 1024]⟩
abbrev S1024x1 : Shape := ⟨2, ![1024, 1]⟩
abbrev S2048 : Shape := ⟨1, ![2048]⟩
abbrev S1 : Shape := ⟨1, ![1]⟩
abbrev S1x1 : Shape := ⟨2, ![1, 1]⟩
abbrev S32x1024 : Shape := ⟨2, ![32, 1024]⟩

abbrev nBuf : Space → Nat
  | .hbm => 8
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i1⟩
  | .hbm, ⟨2, _⟩ => ⟨S1024x1024, .f32⟩
  | .hbm, ⟨3, _⟩ => ⟨S32x2048, .f32⟩
  | .hbm, ⟨4, _⟩ => ⟨S32x2048x1, .f32⟩
  | .hbm, ⟨5, _⟩ => ⟨S32x1x1024, .f32⟩
  | .hbm, ⟨6, _⟩ => ⟨S32x2048x1, .f32⟩
  | .hbm, ⟨7, _⟩ => ⟨S32x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1, .f32⟩
  | .local _ .vmem, ⟨3, _⟩ => ⟨S1x2048x1, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x2048x1, .f32⟩
  | .local _ .vmem, ⟨8, _⟩ => ⟨S1x2048x1, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S32x2048_S32x2048x1_0_1 : S32x2048.BroadcastsInDim S32x2048x1 (![0, 1] : Fin 2 → Fin S32x2048x1.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1024x1024_S1024x1024_0_0 : ∀ a, (![0, 0] : Fin 2 → Nat) a + S1024x1024.size a ≤ S1024x1024.size a
  h_S1024x1024 : 0 < S1024x1024.numel
  reduces_S2048x1024_S1024 : S2048x1024.Reduces [0] S1024
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  broadcasts_S1x1024_S2048x1024 : S1x1024.Broadcasts S2048x1024
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  broadcasts_S1x1_S2048x1 : S1x1.Broadcasts S2048x1
  broadcasts_S2048x1_S2048x1024 : S2048x1.Broadcasts S2048x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S2048x1_S1x2048x1 : S2048x1.ShapeCasts S1x2048x1
  shapeCasts_S32x1x1024_S32x1024 : S32x1x1024.ShapeCasts S32x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S32x2048x1024.size a
  hwx0_0 : ∀ i : grid0.Coords, EltTy.bits .f32 = 32 ∨ (Rect.block (s := S32x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S32x2048x1.size a
  hwx0_1 : ∀ i : grid0.Coords, EltTy.bits .f32 = 32 ∨ (Rect.block (s := S32x2048x1) S1x2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S32x2048x1.size a
  hwx0_4 : ∀ i : grid0.Coords, EltTy.bits .f32 = 32 ∨ (Rect.block (s := S32x2048x1) S1x2048x1.size (cc0_transform_4 i) (hinb0_4 i)).WholeWords (EltTy.packing .f32)

variable [Facts₀]

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S32x2048 : Shape := ⟨2, ![32, 2048]⟩
abbrev S1024x1024 : Shape := ⟨2, ![1024, 1024]⟩
abbrev S_ : Shape := ⟨0, ![]⟩
abbrev S32x1024 : Shape := ⟨2, ![32, 1024]⟩
abbrev S32x1x1024 : Shape := ⟨3, ![32, 1, 1024]⟩
abbrev S32x2048x1 : Shape := ⟨3, ![32, 2048, 1]⟩
abbrev S32x1 : Shape := ⟨2, ![32, 1]⟩
abbrev S32x1x1 : Shape := ⟨3, ![32, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i1⟩
  | .hbm, ⟨2, _⟩ => ⟨S1024x1024, .f32⟩
  | .hbm, ⟨3, _⟩ => ⟨S_, .f32⟩
  | .hbm, ⟨4, _⟩ => ⟨S32x1024, .f32⟩
  | .hbm, ⟨5, _⟩ => ⟨S32x1x1024, .f32⟩
  | .hbm, ⟨6, _⟩ => ⟨S_, .f32⟩
  | .hbm, ⟨7, _⟩ => ⟨S32x1x1024, .f32⟩
  | .hbm, ⟨8, _⟩ => ⟨S32x1x1024, .f32⟩
  | .hbm, ⟨9, _⟩ => ⟨S32x2048, .f32⟩
  | .hbm, ⟨10, _⟩ => ⟨S32x2048x1024, .f32⟩
  | .hbm, ⟨11, _⟩ => ⟨S32x2048x1, .f32⟩
  | .hbm, ⟨12, _⟩ => ⟨S32x2048x1024, .f32⟩
  | .hbm, ⟨13, _⟩ => ⟨S32x2048x1024, .f32⟩
  | .hbm, ⟨14, _⟩ => ⟨S32x2048x1024, .f32⟩
  | .hbm, ⟨15, _⟩ => ⟨S32x2048x1024, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S_, .f32⟩
  | .hbm, ⟨20, _⟩ => ⟨S32x2048, .f32⟩
  | .hbm, ⟨21, _⟩ => ⟨S32x2048, .f32⟩
  | .hbm, ⟨22, _⟩ => ⟨S_, .f32⟩
  | .hbm, ⟨23, _⟩ => ⟨S32x2048, .f32⟩
  | .hbm, ⟨24, _⟩ => ⟨S32x2048, .f32⟩
  | .hbm, ⟨25, _⟩ => ⟨S32x2048x1, .f32⟩
  | .hbm, ⟨26, _⟩ => ⟨S32x2048x1, .f32⟩
  | .hbm, ⟨27, _⟩ => ⟨S_, .f32⟩
  | .hbm, ⟨28, _⟩ => ⟨S32x1, .f32⟩
  | .hbm, ⟨29, _⟩ => ⟨S_, .f32⟩
  | .hbm, ⟨30, _⟩ => ⟨S32x1, .f32⟩
  | .hbm, ⟨31, _⟩ => ⟨S32x1, .f32⟩
  | .hbm, ⟨32, _⟩ => ⟨S32x1x1, .f32⟩
  | .hbm, ⟨33, _⟩ => ⟨S32x2048x1, .f32⟩
  | .hbm, ⟨34, _⟩ => ⟨S32x2048x1, .f32⟩
  | .hbm, ⟨35, _⟩ => ⟨S32x2048x1, .f32⟩
  | .hbm, ⟨36, _⟩ => ⟨S_, .f32⟩
  | .hbm, ⟨37, _⟩ => ⟨S32x1, .f32⟩
  | .hbm, ⟨38, _⟩ => ⟨S32x1x1, .f32⟩
  | .hbm, ⟨39, _⟩ => ⟨S32x2048x1, .f32⟩
  | .hbm, ⟨40, _⟩ => ⟨S32x2048x1, .f32⟩
  | .hbm, ⟨41, _⟩ => ⟨S32x2048x1024, .f32⟩
  | .hbm, ⟨42, _⟩ => ⟨S32x2048x1024, .f32⟩
  | .hbm, ⟨43, _⟩ => ⟨S_, .f32⟩
  | .hbm, ⟨44, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  reducesTo_S32x2048x1024_S32x1024_d1 : S32x2048x1024.ReducesTo [1] S32x1024
  h_S_ : 0 < S_.numel
  bcast_S32x1024_S32x1x1024_0_2 : S32x1024.BroadcastsInDim S32x1x1024 (![0, 2] : Fin 2 → Fin S32x1x1024.rank)
  bcast_S_S32x1x1024 : S_.BroadcastsInDim S32x1x1024 (![] : Fin 0 → Fin S32x1x1024.rank)
  bcast_S32x2048_S32x2048x1_0_1 : S32x2048.BroadcastsInDim S32x2048x1 (![0, 1] : Fin 2 → Fin S32x2048x1.rank)
  bcast_S32x2048x1_S32x2048x1024_0_1_2 : S32x2048x1.BroadcastsInDim S32x2048x1024 (![0, 1, 2] : Fin 3 → Fin S32x2048x1024.rank)
  bcast_S32x1x1024_S32x2048x1024_0_1_2 : S32x1x1024.BroadcastsInDim S32x2048x1024 (![0, 1, 2] : Fin 3 → Fin S32x2048x1024.rank)
  reducesTo_S32x2048x1024_S32x2048_d2 : S32x2048x1024.ReducesTo [2] S32x2048
  bcast_S_S32x2048 : S_.BroadcastsInDim S32x2048 (![] : Fin 0 → Fin S32x2048.rank)
  reducesTo_S32x2048x1_S32x1_d1 : S32x2048x1.ReducesTo [1] S32x1
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  dot_S32x2048x1024_S1024x1024_S32x2048x1024_2_0_01_1_n_n_wf : DotDims.WF S32x2048x1024 S1024x1024 S32x2048x1024 [2] [0] [0, 1] [1] [] []

variable [Facts₀]

def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf

class Facts : Prop extends Facts₀ where

variable [Facts]
-- ==== Proof.AttnSpec.lean ====
/-
  Masked single-query attention, one batch row at a time, on the extended reals.

  For one batch the data are the embeddings E (a 2048 x 1024 matrix), the mask column mu (2048 entries, each the
  number 0 or 1) and the weights W (1024 x 1024).  With ys the column means of E, both programs compute

      logit s = (bilinear form of row s of E, W and ys) * mu s + (1 - mu s) * (-1e9),

  then the softmax of the logits over s and the softmax-weighted sum of the rows of E.  They differ only in how the
  bilinear form is bracketed:

      one side   sum_d E s d * (sum_e W d e * ys e)                       (a matrix-vector product first),
      the other  sum_e ((sum_d E s d * W d e) * mu s) * ys e              (the full matrix product first).

  On real numbers the two are equal by distributivity and an exchange of the two finite sums.  On the extended reals
  distributivity fails at the infinities, so the law is proved for real E and W (mu is real by construction, ys is then
  a real mean), which is what the finiteness precondition provides.  Everything after the logits is the same function
  of the logits on both sides and is never opened.
-/
import Idealize.ShloMosaic.PureOps.Ideal
import Idealize.ShloMosaic.PureOps.Ideal.Laws

noncomputable section

open scoped BigOperators

namespace Cert.AttnSpec

open Idealize.ShloMosaic

/-! ## The words whose values matter -/

/-- The divisor of the mean, 2048. -/
theorem word_2048 : Ideal.ofBits .f32 0x45000000#32 = ((2048 : ℝ) : EReal) := by
  simp [Ideal.ofBits, Ideal.ieee, -EReal.coe_mul]; norm_num

/-- The value the row maximum starts from is the bottom element. -/
theorem word_negInf : Ideal.ofBits .f32 0xFF800000#32 = (⊥ : EReal) := by
  simp [Ideal.ofBits, Ideal.ieee]

/-- A maximum with that starting value on the left changes nothing. -/
theorem max_negInf_left (x : EReal) : max (Ideal.ofBits .f32 0xFF800000#32) x = x := by
  rw [word_negInf]; exact max_bot_left x

/-! ## The row functions -/

/-- Column means of the embeddings. -/
def mean (E : Fin 2048 → Fin 1024 → EReal) (e : Fin 1024) : EReal :=
  Ideal.div (∑ s : Fin 2048, E s e) (Ideal.ofBits .f32 0x45000000#32)

/-- The query vector q = W ys. -/
def query (E : Fin 2048 → Fin 1024 → EReal) (W : Fin 1024 → Fin 1024 → EReal) (d : Fin 1024) : EReal :=
  ∑ e : Fin 1024, W d e * mean E e

/-- The additive bias of a masked-out row. -/
def bias (mu : Fin 2048 → EReal) (s : Fin 2048) : EReal :=
  (Ideal.ofBits .f32 0x3F800000#32 - mu s) * Ideal.ofBits .f32 0xCE6E6B28#32

/-- The logits, matrix-vector product first. -/
def logitQ (E : Fin 2048 → Fin 1024 → EReal) (mu : Fin 2048 → EReal) (W : Fin 1024 → Fin 1024 → EReal)
    (s : Fin 2048) : EReal :=
  (∑ d : Fin 1024, E s d * query E W d) * mu s + bias mu s

/-- The logits, full matrix product first. -/
def logitP (E : Fin 2048 → Fin 1024 → EReal) (mu : Fin 2048 → EReal) (W : Fin 1024 → Fin 1024 → EReal)
    (s : Fin 2048) : EReal :=
  (∑ e : Fin 1024, ((∑ d : Fin 1024, E s d * W d e) * mu s) * mean E e) + bias mu s

/-- The largest logit (a fold of max from the bottom element). -/
def rowMax (L : Fin 2048 → EReal) : EReal :=
  (Finset.univ : Finset (Fin 2048)).fold max (Ideal.ofBits .f32 0xFF800000#32) L

/-- Unnormalised softmax weights. -/
def expShift (L : Fin 2048 → EReal) (s : Fin 2048) : EReal := Ideal.exp (L s - rowMax L)

/-- Softmax over the sequence axis. -/
def soft (L : Fin 2048 → EReal) (s : Fin 2048) : EReal :=
  Ideal.div (expShift L s) (∑ s' : Fin 2048, expShift L s')

/-- The softmax-weighted sum of the rows of E. -/
def pooled (E : Fin 2048 → Fin 1024 → EReal) (L : Fin 2048 → EReal) (d : Fin 1024) : EReal :=
  ∑ s : Fin 2048, soft L s * E s d

/-! ## The law joining the two logits -/

/-- A finite sum of real numbers, coerced term by term, is the coerced sum. -/
theorem coe_sum {ι : Type*} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- For real embeddings the mean is real. -/
theorem mean_coe (e' : Fin 2048 → Fin 1024 → ℝ) (e : Fin 1024) :
    mean (fun s d => ((e' s d : ℝ) : EReal)) e = (((∑ s : Fin 2048, e' s e) * (1 / 2048 : ℝ) : ℝ) : EReal) := by
  unfold mean
  rw [word_2048, Ideal.div_coe (by norm_num : (2048 : ℝ) ≠ 0), coe_sum, ← EReal.coe_mul]

/-- The bilinear form bracketed both ways, on real numbers: distribute, exchange the two finite sums, reorder the
    factors. -/
theorem bilinear_real (a : Fin 1024 → ℝ) (w : Fin 1024 → Fin 1024 → ℝ) (y : Fin 1024 → ℝ) (u : ℝ) :
    (∑ d : Fin 1024, a d * ∑ e : Fin 1024, w d e * y e) * u
      = ∑ e : Fin 1024, ((∑ d : Fin 1024, a d * w d e) * u) * y e := by
  simp only [Finset.mul_sum, Finset.sum_mul]
  rw [Finset.sum_comm]
  exact Finset.sum_congr rfl fun e _ => Finset.sum_congr rfl fun d _ => by ring

/-- THE LAW: for real embeddings, real weights and a real mask column the two bracketings of the bilinear form, and
    so the two logits, agree. -/
theorem logitQ_eq_logitP (E : Fin 2048 → Fin 1024 → EReal) (mu : Fin 2048 → EReal) (W : Fin 1024 → Fin 1024 → EReal)
    (hE : ∀ s d, ∃ r : ℝ, E s d = (r : EReal)) (hmu : ∀ s, ∃ r : ℝ, mu s = (r : EReal))
    (hW : ∀ d e, ∃ r : ℝ, W d e = (r : EReal)) : logitQ E mu W = logitP E mu W := by
  choose e' he using hE
  choose u hu using hmu
  choose w hw using hW
  obtain rfl : E = fun s d => ((e' s d : ℝ) : EReal) := funext fun s => funext fun d => he s d
  obtain rfl : mu = fun s => ((u s : ℝ) : EReal) := funext hu
  obtain rfl : W = fun d e => ((w d e : ℝ) : EReal) := funext fun d => funext fun e => hw d e
  funext s
  unfold logitQ logitP query
  refine congrArg (· + bias _ s) ?_
  simp only [mean_coe, ← EReal.coe_mul, coe_sum]
  exact congrArg (fun r : ℝ => (r : EReal))
    (bilinear_real (e' s) w (fun e => (∑ s' : Fin 2048, e' s' e) * (1 / 2048 : ℝ)) (u s))

end Cert.AttnSpec

end
-- ==== Proof.AttnArrays.lean ====
/-
  The two results as whole arrays.

  The embeddings are a [32, 2048, 1024] array, the mask a [32, 2048] array of bits (a bit b counts as the number b),
  the weights a [1024, 1024] matrix.  Batch b sees the slab E_b = A(b, ., .), the mask column of row b, and the whole
  weight matrix.  Given the logits of every batch, the first result is the softmax-weighted sum of the slab's rows,
  a [32, 1024] array, and the second the softmax weights themselves, a [32, 2048, 1] array.
-/
import proofs.«129989_j3058016715095_2_alg».proof.Proof.AttnSpec
import Idealize.ShloMosaic.Lib.ValueIdx

noncomputable section

namespace Cert.AttnArrays

open Idealize.ShloMosaic Idealize.ShloMosaic.ValueIdx Cert.AttnSpec

/-- Batch b's slab of the embeddings. -/
def slab (A : (⟨3, ![32, 2048, 1024]⟩ : Shape).Idx → EReal) (b : Fin 32) : Fin 2048 → Fin 1024 → EReal :=
  fun s d => A (ix3 b s d)

/-- Batch b's mask column, each bit as the number 0 or 1. -/
def maskRow (M : (⟨2, ![32, 2048]⟩ : Shape).Idx → BitVec 1) (b : Fin 32) : Fin 2048 → EReal :=
  fun s => (((M (ix2 b s)).toNat : ℝ) : EReal)

/-- The weight matrix by its two coordinates. -/
def weights (Wt : (⟨2, ![1024, 1024]⟩ : Shape).Idx → EReal) : Fin 1024 → Fin 1024 → EReal :=
  fun d e => Wt (ix2 d e)

/-- The softmax weights of every batch, as the [32, 2048, 1] array. -/
def softArr (L : Fin 32 → Fin 2048 → EReal) : (⟨3, ![32, 2048, 1]⟩ : Shape).Idx → EReal :=
  fun i => soft (L ⟨(i 0).val, (i 0).isLt⟩) ⟨(i 1).val, (i 1).isLt⟩

/-- The pooled embeddings of every batch, as the [32, 1024] array. -/
def pooledArr (A : (⟨3, ![32, 2048, 1024]⟩ : Shape).Idx → EReal) (L : Fin 32 → Fin 2048 → EReal) :
    (⟨2, ![32, 1024]⟩ : Shape).Idx → EReal :=
  fun i => pooled (slab A ⟨(i 0).val, (i 0).isLt⟩) (L ⟨(i 0).val, (i 0).isLt⟩) ⟨(i 1).val, (i 1).isLt⟩

/-- The logits of every batch, matrix-vector product first. -/
def logitsQ (A : (⟨3, ![32, 2048, 1024]⟩ : Shape).Idx → EReal) (M : (⟨2, ![32, 2048]⟩ : Shape).Idx → BitVec 1)
    (Wt : (⟨2, ![1024, 1024]⟩ : Shape).Idx → EReal) (b : Fin 32) : Fin 2048 → EReal :=
  logitQ (slab A b) (maskRow M b) (weights Wt)

/-- The logits of every batch, full matrix product first. -/
def logitsP (A : (⟨3, ![32, 2048, 1024]⟩ : Shape).Idx → EReal) (M : (⟨2, ![32, 2048]⟩ : Shape).Idx → BitVec 1)
    (Wt : (⟨2, ![1024, 1024]⟩ : Shape).Idx → EReal) (b : Fin 32) : Fin 2048 → EReal :=
  logitP (slab A b) (maskRow M b) (weights Wt)

/-- For real embeddings and weights the two families of logits are one (the mask column is real by construction). -/
theorem logitsQ_eq_logitsP (A : (⟨3, ![32, 2048, 1024]⟩ : Shape).Idx → EReal)
    (M : (⟨2, ![32, 2048]⟩ : Shape).Idx → BitVec 1) (Wt : (⟨2, ![1024, 1024]⟩ : Shape).Idx → EReal)
    (hA : ∀ i, ∃ r : ℝ, A i = (r : EReal)) (hW : ∀ i, ∃ r : ℝ, Wt i = (r : EReal)) :
    logitsQ A M Wt = logitsP A M Wt :=
  funext fun b => logitQ_eq_logitP (slab A b) (maskRow M b) (weights Wt) (fun s d => hA (ix3 b s d))
    (fun s => ⟨_, rfl⟩) (fun d e => hW (ix2 d e))

end Cert.AttnArrays

end
-- ==== Proof.FiniteInputs.lean ====
/-
  From the precondition to real entries.

  The precondition says that the conjunction, over both float inputs, of "every |x| is below +infinity" is the bit 1.
  A conjunction of bits is 1 only if each bit is; an all-reduction by "and" that is 1 met only ones; and an extended
  real whose absolute value max(x, -x) is strictly below the top element is neither infinity, hence a real number.
-/
import proofs.«129989_j3058016715095_2_alg».proof.Pre_finite_inputs
import proofs.«129989_j3058016715095_2_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- The scalar shape has one index. -/
instance : Subsingleton (⟨0, ![]⟩ : Shape).Idx := ⟨fun _ _ => funext fun d => d.elim0⟩

/-- The word of +infinity is the top element. -/
theorem word_posInf : Ideal.ofBits .f32 0x7F800000#32 = (⊤ : EReal) := by
  simp [Ideal.ofBits, Ideal.ieee]

/-- An extended real with |x| < +infinity is a real number. -/
theorem real_of_abs_lt_top (x : EReal)
    (h : Ideal.cmp .olt (max x (-x)) (Ideal.ofBits .f32 0x7F800000#32) = 1#1) : ∃ r : ℝ, x = (r : EReal) := by
  rw [word_posInf] at h
  induction x using EReal.rec with
  | bot => simp [Ideal.cmp] at h
  | coe r => exact ⟨r, rfl⟩
  | top => simp [Ideal.cmp] at h

/-- Under the precondition every entry of the embeddings and of the weights is a real number. -/
theorem entries_real (a0 : FVec Ideal S32x2048x1024 .f32) (a1 : IVec S32x2048 1) (a2 : FVec Ideal S1024x1024 .f32)
    (h : Cert.Pre_finite_inputs.fn (F := Ideal) a0 a1 a2 = fun _ => 1#1) :
    (∀ i, ∃ r : ℝ, a0 i = (r : EReal)) ∧ (∀ i, ∃ r : ℝ, a2 i = (r : EReal)) := by
  have h0 := congrFun h ValueIdx.ix0
  dsimp only [Cert.Pre_finite_inputs.fn] at h0
  obtain ⟨h3, h7⟩ := IntOp.andi_eq_one.1 h0
  exact ⟨fun i => real_of_abs_lt_top (a0 i) (Host.reduce_andi_all _ _ _ _ _ h3 i),
    fun i => real_of_abs_lt_top (a2 i) (Host.reduce_andi_all _ _ _ _ _ h7 i)⟩

end Cert.FiniteInputs

end
-- ==== Proof.RefRead.lean ====
/-
  The reference program's two results, read index by index.

  Each stage of the reference is read at an index written by its coordinates, bottom-up: the column means, the mask
  column, the matrix product, the masked product times the means summed over the columns, the bias, the logits, the
  row maximum (a fold of max from the bottom element; the further max with the bottom element in front changes
  nothing), the shifted exponentials, their sum, the softmax and the pooled rows.  The outcome: the reference computes
  the two whole-array functions of the specification with the logits bracketed "full matrix product first".
-/
import proofs.«129989_j3058016715095_2_alg».proof.Proof.Gen.ReferenceIdeal.Read
import proofs.«129989_j3058016715095_2_alg».proof.Proof.AttnArrays
import Idealize.ShloMosaic.PureOps.Reduce

noncomputable section

namespace Cert.RefRead

open Cert.ReferenceIdeal Cert.ReferenceIdeal.Gen Cert.ReferenceIdeal.Read
open Idealize.ShloMosaic Idealize.ShloMosaic.ValueIdx Cert.AttnSpec Cert.AttnArrays

/-- Two indices of a rank-2 shape with equal coordinates are equal. -/
macro "idx2" : tactic =>
  `(tactic| (funext a; apply Fin.ext; match a with | ⟨0, _⟩ => rfl | ⟨1, _⟩ => rfl))
/-- Two indices of a rank-3 shape with equal coordinates are equal. -/
macro "idx3" : tactic =>
  `(tactic| (funext a; apply Fin.ext; match a with | ⟨0, _⟩ => rfl | ⟨1, _⟩ => rfl | ⟨2, _⟩ => rfl))

variable (x0 : (⟨S32x2048x1024, .f32⟩ : BufTy).Contents (Elt Ideal))
  (x1 : (⟨S32x2048, .i1⟩ : BufTy).Contents (Elt Ideal))
  (x2 : (⟨S1024x1024, .f32⟩ : BufTy).Contents (Elt Ideal))

/-- The column means. -/
theorem mean_read (b : Fin 32) (u : Fin 1) (e : Fin 1024) :
    val_main_v3 (F := Ideal) x0 (ix3 b u e) = mean (slab x0 b) e := by
  rw [val_main_v3_apply, val_main_v1_apply, val_main_v0_apply, val_main_v2_apply, val_main_cst_apply,
    val_main_cst_0_apply]
  simp only [Ideal.hostDivf_def, Ideal.ofBits_def, Ideal.ofBits_zero_f32, zero_add]
  unfold mean slab
  refine congrArg (fun t => Ideal.div t _) (Finset.sum_congr rfl fun k _ => congrArg x0 ?_)
  idx3

/-- The mask column. -/
theorem mask_read (b : Fin 32) (s : Fin 2048) : val_main_v4 (F := Ideal) x1 (ix2 b s) = maskRow x1 b s := rfl

/-- The matrix product E W. -/
theorem prod_read (b : Fin 32) (s : Fin 2048) (e : Fin 1024) :
    val_main_v5 (F := Ideal) x0 x2 (ix3 b s e) = ∑ d : Fin 1024, slab x0 b s d * weights x2 d e := by
  rw [val_main_v5_apply]
  refine Finset.sum_congr rfl fun d _ => congrArg₂ (· * ·) (congrArg x0 ?_) (congrArg x2 ?_)
  · idx3
  · idx2

/-- The mask broadcast along the columns. -/
theorem maskB_read (b : Fin 32) (s : Fin 2048) (e : Fin 1024) :
    val_main_v7 (F := Ideal) x1 (ix3 b s e) = maskRow x1 b s := by
  rw [val_main_v7_apply, val_main_v6_apply]
  refine (congrArg (val_main_v4 (F := Ideal) x1) ?_).trans (mask_read x1 b s)
  idx2

/-- The means broadcast along the rows. -/
theorem meanB_read (b : Fin 32) (s : Fin 2048) (e : Fin 1024) :
    val_main_v9 (F := Ideal) x0 (ix3 b s e) = mean (slab x0 b) e := by
  rw [val_main_v9_apply]
  refine (congrArg (val_main_v3 (F := Ideal) x0) ?_).trans (mean_read x0 b 0 e)
  idx3

/-- One term of the bilinear form, full matrix product first. -/
theorem term_read (b : Fin 32) (s : Fin 2048) (e : Fin 1024) :
    val_main_v10 (F := Ideal) x0 x1 x2 (ix3 b s e)
      = ((∑ d : Fin 1024, slab x0 b s d * weights x2 d e) * maskRow x1 b s) * mean (slab x0 b) e := by
  rw [val_main_v10_apply, val_main_v8_apply, prod_read, maskB_read, meanB_read]
  rfl

/-- The bilinear form. -/
theorem form_read (b : Fin 32) (s : Fin 2048) :
    val_main_v11 (F := Ideal) x0 x1 x2 (ix2 b s)
      = ∑ e : Fin 1024, ((∑ d : Fin 1024, slab x0 b s d * weights x2 d e) * maskRow x1 b s) * mean (slab x0 b) e := by
  rw [val_main_v11_apply, val_main_cst_1_apply]
  simp only [Ideal.ofBits_def, Ideal.ofBits_zero_f32, zero_add]
  refine Finset.sum_congr rfl fun e _ => ?_
  refine (congrArg (val_main_v10 (F := Ideal) x0 x1 x2) ?_).trans (term_read x0 x1 x2 b s e)
  idx3

/-- The bias of a masked-out row. -/
theorem bias_read (b : Fin 32) (s : Fin 2048) :
    val_main_v16 (F := Ideal) x1 (ix2 b s) = bias (maskRow x1 b) s := by
  rw [val_main_v16_apply, val_main_v14_apply, val_main_v13_apply, val_main_v15_apply, val_main_cst_2_apply,
    val_main_cst_3_apply]
  rfl

/-- The logits. -/
theorem logit_read (b : Fin 32) (s : Fin 2048) (u : Fin 1) :
    val_main_v18 (F := Ideal) x0 x1 x2 (ix3 b s u) = logitsP x0 x1 x2 b s := by
  rw [val_main_v18_apply, val_main_v12_apply, val_main_v17_apply]
  have e12 : idx_main_v12 (ix3 b s u) = ix2 b s := by idx2
  have e17 : idx_main_v17 (ix3 b s u) = ix2 b s := by idx2
  rw [e12, e17, form_read, bias_read]
  rfl

/-- The row maximum. -/
theorem max_read (b : Fin 32) (u : Fin 1) :
    val_main_v21 (F := Ideal) x0 x1 x2 (ix2 b u) = rowMax (logitsP x0 x1 x2 b) := by
  have h : S32x2048x1.Reduces [1] S32x1 := by decide
  rw [val_main_v21_apply, val_main_v20_apply, val_main_cst_5_apply]
  show max (Ideal.ofBits .f32 0xFF800000#32) _ = _
  rw [max_negInf_left]
  unfold val_main_v19
  rw [Host.reduce_eq_fold_single FloatOps.maximumf _ _ reducesTo_S32x2048x1_S32x1_d1 h h_S_ (ix2 b u)]
  have hf : (val_main_v18 (F := Ideal) x0 x1 x2 ∘ h.lift (ix2 b u)) = logitsP x0 x1 x2 b := funext fun s => by
    show val_main_v18 (F := Ideal) x0 x1 x2 (h.lift (ix2 b u) s) = _
    refine (congrArg (val_main_v18 (F := Ideal) x0 x1 x2) ?_).trans (logit_read x0 x1 x2 b s u)
    idx3
  rw [hf]
  rfl

/-- The shifted exponentials. -/
theorem exp_read (b : Fin 32) (s : Fin 2048) (u : Fin 1) :
    val_main_v25 (F := Ideal) x0 x1 x2 (ix3 b s u) = expShift (logitsP x0 x1 x2 b) s := by
  rw [val_main_v25_apply, val_main_v24_apply, logit_read, val_main_v23_apply, val_main_v22_apply]
  have e : idx_main_v22 (idx_main_v23 (ix3 b s u)) = ix2 b (0 : Fin 1) := by idx2
  rw [e, max_read]
  rfl

/-- Their sum over the sequence. -/
theorem sum_read (b : Fin 32) (u : Fin 1) :
    val_main_v26 (F := Ideal) x0 x1 x2 (ix2 b u) = ∑ s : Fin 2048, expShift (logitsP x0 x1 x2 b) s := by
  rw [val_main_v26_apply, val_main_cst_6_apply]
  simp only [Ideal.ofBits_def, Ideal.ofBits_zero_f32, zero_add]
  refine Finset.sum_congr rfl fun s _ => ?_
  refine (congrArg (val_main_v25 (F := Ideal) x0 x1 x2) ?_).trans (exp_read x0 x1 x2 b s u)
  idx3

/-- The softmax. -/
theorem soft_read (b : Fin 32) (s : Fin 2048) (u : Fin 1) :
    val_main_v29 (F := Ideal) x0 x1 x2 (ix3 b s u) = soft (logitsP x0 x1 x2 b) s := by
  rw [val_main_v29_apply, exp_read, val_main_v28_apply, val_main_v27_apply]
  have e : idx_main_v27 (idx_main_v28 (ix3 b s u)) = ix2 b (0 : Fin 1) := by idx2
  rw [e, sum_read]
  rfl

/-- The pooled rows. -/
theorem pooled_read (b : Fin 32) (d : Fin 1024) :
    val_main_v32 (F := Ideal) x0 x1 x2 (ix2 b d) = pooled (slab x0 b) (logitsP x0 x1 x2 b) d := by
  rw [val_main_v32_apply, val_main_cst_7_apply]
  simp only [Ideal.ofBits_def, Ideal.ofBits_zero_f32, zero_add]
  refine Finset.sum_congr rfl fun s _ => ?_
  rw [val_main_v31_apply, val_main_v30_apply]
  have e : idx_main_v30 (idx_main_v32 (ix2 b d) s) = ix3 b s (0 : Fin 1) := by idx3
  have e' : idx_main_v32 (ix2 b d) s = ix3 b s d := by idx3
  rw [e, soft_read, e']
  rfl

/-- THE REFERENCE'S SECOND RESULT is the softmax-weights array of the specification. -/
theorem soft_eq : val_main_v29 (F := Ideal) x0 x1 x2 = softArr (logitsP x0 x1 x2) := by
  funext i
  obtain ⟨b, s, u, rfl⟩ : ∃ (b : Fin 32) (s : Fin 2048) (u : Fin 1), i = ix3 b s u := ⟨i 0, i 1, i 2, eq_ix3 i⟩
  exact soft_read x0 x1 x2 b s u

/-- THE REFERENCE'S FIRST RESULT is the pooled array of the specification. -/
theorem pooled_eq : val_main_v32 (F := Ideal) x0 x1 x2 = pooledArr x0 (logitsP x0 x1 x2) := by
  funext i
  obtain ⟨b, d, rfl⟩ : ∃ (b : Fin 32) (d : Fin 1024), i = ix2 b d := ⟨i 0, i 1, eq_ix2 i⟩
  exact pooled_read x0 x1 x2 b d

end Cert.RefRead

end
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibTileOps.lean ====
/-
  Vector operations of a tile read at an index, at the ideal instance, generic in the extents.

  * a shape cast between two shapes of one element, and a broadcast from a shape whose axes all have extent one,
    read the operand's only element;
  * a vector of length `a` cast to the column `[a, 1]` reads the vector at the row;
  * the sum of a `[a, b]` tile taken in two steps — along the lanes, then, after the cast to a column, along the
    rows — is the double sum over the rows and the lanes.
-/
import Idealize.ShloMosaic.Lib.Pipeline.Value
import Idealize.ShloMosaic.Lib.ValueIdx
import Idealize.ShloMosaic.PureOps.Ideal.Laws

noncomputable section

namespace Cert.LibTileOps

open Idealize.ShloMosaic Idealize.ShloMosaic.ValueIdx

variable {α : Type}

/-- A cast out of a shape with one element reads that element, whatever the two indices are called. -/
theorem shapeCast_one {s t : Shape} (x : s.Idx → α) (h : s.ShapeCasts t) (hs : s.numel = 1) (j : t.Idx) (k : s.Idx) :
    shapeCast t x h j = x k :=
  shapeCast_apply x h j k (by
    have h1 := (s.rowMajor k).isLt
    have h2 := (t.rowMajor j).isLt
    have h3 : t.numel = s.numel := h
    omega)

/-- A broadcast out of a shape whose axes all have extent one reads its one element everywhere. -/
theorem broadcastTo_one {s t : Shape} (x : s.Idx → α) (h : s.Broadcasts t) (hs : ∀ a, s.size a = 1) (j : t.Idx) (k : s.Idx) :
    broadcastTo t x h j = x k :=
  broadcastTo_apply x h j k (fun a => by
    rw [if_pos (hs a)]
    have h1 := (k a).isLt
    have h2 := hs a
    omega)

/-- A length-`a` vector cast to the column `[a, 1]`, read at row `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- The two-step sum of a tile: lanes first, then rows. -/
theorem tile_sum_apply {a b : ℕ} (x : FVec Ideal ⟨2, ![a, b]⟩ .f32)
    (h1 : (⟨2, ![a, b]⟩ : Shape).Reduces [1] ⟨1, ![a]⟩) (hφ1 : FKind.Formats .f32)
    (hacc1 : (0x00000000#32 : BitVec 32) = FKind.add.neutral .f32 hφ1)
    (hc : (⟨1, ![a]⟩ : Shape).ShapeCasts ⟨2, ![a, 1]⟩)
    (h0 : (⟨2, ![a, 1]⟩ : Shape).Reduces [0] ⟨1, ![1]⟩) (hφ0 : FKind.Formats .f32)
    (hacc0 : (0x00000000#32 : BitVec 32) = FKind.add.neutral .f32 hφ0)
    (j : (⟨1, ![1]⟩ : Shape).Idx) :
    multiReduction .add [0] ⟨1, ![1]⟩
        (shapeCast ⟨2, ![a, 1]⟩ (multiReduction .add [1] ⟨1, ![a]⟩ x 0x00000000#32 h1 hφ1 hacc1) hc)
        0x00000000#32 h0 hφ0 hacc0 j
      = ∑ r : Fin a, ∑ k : Fin b, x (ix2 r k) := by
  refine (Ideal.multiReduction_add_single _ _ h0 hφ0 hacc0 j).trans ?_
  show ∑ r : Fin a, _ = _
  refine Finset.sum_congr rfl fun r _ => ?_
  have e0 : h0.lift j r = ix2 r (0 : Fin 1) := funext fun c => Fin.ext (by
    match c with
    | ⟨0, _⟩ => rfl
    | ⟨1, _⟩ => show (j ⟨0, _⟩).val = 0; have hj : (j ⟨0, Nat.one_pos⟩).val < 1 := (j ⟨0, Nat.one_pos⟩).isLt; omega)
  rw [e0, shapeCast_col_apply]
  refine (Ideal.multiReduction_add_single x _ h1 hφ1 hacc1 (ix1 r)).trans ?_
  show ∑ k : Fin b, _ = _
  refine Finset.sum_congr rfl fun k _ => ?_
  exact congrArg x (funext fun c => Fin.ext (by
    match c with
    | ⟨0, _⟩ => rfl
    | ⟨1, _⟩ => rfl))

end Cert.LibTileOps

end
-- ==== Proof.KerPayload.lean ====
/-
  The kernel body's two stored values, read index by index.

  The body computes, from the point's three loaded blocks (the [1, 2048, 1024] slab x0 of the embeddings, the
  [1, 2048, 1] mask column x1 and the [1024, 1024] weights x2), the softmax weights and the pooled rows.  Its
  arithmetic is cut here into named pieces — the means, the query vector, the logits, the row maximum, the shifted
  exponentials, the softmax, the pooled rows — each piece being literally the corresponding sub-term of the body,
  so that the body is their composition by unfolding.  Each piece is then read at an index written by its
  coordinates: a layout operation hands the index to its operand, a one-axis reduction becomes a sum (or a fold of max)
  over the dropped axis.  The outcome: at row s the body's softmax output is the specification's softmax of the
  logits bracketed "matrix-vector product first", and at column d its pooled output is the specification's pooled row.
-/
import proofs.«129989_j3058016715095_2_alg».proof.Proof.Gen.KernelIdeal.Skeleton
import proofs.«129989_j3058016715095_2_alg».proof.Proof.AttnSpec
import proofs.«129989_j3058016715095_2_alg».proof.Proof.LibReduceRead
import proofs.«129989_j3058016715095_2_alg».proof.Proof.LibLayout
import proofs.«129989_j3058016715095_2_alg».proof.Proof.LibTileOps
import Idealize.ShloMosaic.Lib.Pipeline.Value
import Idealize.ShloMosaic.Lib.ValueIdx
import Idealize.ShloMosaic.Lib.ValueLayout

noncomputable section

open scoped BigOperators

namespace Cert.KerPayload

open Cert.KernelIdeal Cert.KernelIdeal.Gen
open Idealize.ShloMosaic Idealize.ShloMosaic.ValueIdx Cert.AttnSpec Cert.LibReduceRead

variable (x0 : Vec Ideal S1x2048x1024 .f32) (x1 : Vec Ideal S1x2048x1 .f32) (x2 : Vec Ideal S1024x1024 .f32)

/-! ## The loaded blocks by their coordinates -/

/-- The slab of embeddings the point loaded. -/
def blkE : Fin 2048 → Fin 1024 → EReal := fun s d => x0 (ix3 (0 : Fin 1) s d)
/-- The mask column the point loaded. -/
def blkMu : Fin 2048 → EReal := fun s => x1 (ix3 (0 : Fin 1) s (0 : Fin 1))
/-- The weights. -/
def blkW : Fin 1024 → Fin 1024 → EReal := fun d e => x2 (ix2 d e)

/-! ## The body's arithmetic, piece by piece -/

/-- The column means, as a [1, 1024] row. -/
def kMean : FVec Ideal S1x1024 .f32 :=
  divf (shapeCast S1x1024 (multiReduction .add [0] S1024 (k0_pay3 x0) 0x00000000#32 reduces_S2048x1024_S1024 (.inl rfl) rfl) shapeCasts_S1024_S1x1024)
    (broadcast S1x1024 (Scalar.ofBits .f32 0x45000000#32))

/-- The query vector W ys, as a [1, 1024] row. -/
def kQuery : FVec Ideal S1x1024 .f32 :=
  transpose S1x1024 [1, 0]
    (shapeCast S1024x1 (multiReduction .add [1] S1024 (mulf x2 (broadcastTo S1024x1024 (kMean x0) broadcasts_S1x1024_S1024x1024)) 0x00000000#32 reduces_S1024x1024_S1024 (.inl rfl) rfl) shapeCasts_S1024_S1024x1)
    transposes_S1024x1_p1_0_S1x1024

/-- The mask as a [2048, 1] column. -/
def kMask : FVec Ideal S2048x1 .f32 := shapeCast S2048x1 x1 shapeCasts_S1x2048x1_S2048x1

/-- The logits, as a [2048, 1] column. -/
def kLogit : FVec Ideal S2048x1 .f32 :=
  addf
    (mulf (shapeCast S2048x1 (multiReduction .add [1] S2048 (mulf (k0_pay3 x0) (broadcastTo S2048x1024 (kQuery x0 x2) broadcasts_S1x1024_S2048x1024)) 0x00000000#32 reduces_S2048x1024_S2048 (.inl rfl) rfl) shapeCasts_S2048_S2048x1) (kMask x1))
    (mulf (subf (broadcast S2048x1 (Scalar.ofBits .f32 0x3F800000#32)) (kMask x1)) (broadcast S2048x1 (Scalar.ofBits .f32 0xCE6E6B28#32)))

/-- The largest logit, repeated down the column. -/
def kMax (L : FVec Ideal S2048x1 .f32) : FVec Ideal S2048x1 .f32 :=
  broadcastTo S2048x1 (shapeCast S1x1 (multiReduction .maximumf [0] S1 L 0xFF800000#32 reduces_S2048x1_S1 (.inl rfl) rfl) shapeCasts_S1_S1x1) broadcasts_S1x1_S2048x1

/-- The shifted exponentials. -/
def kExp (L : FVec Ideal S2048x1 .f32) : FVec Ideal S2048x1 .f32 := exp (subf L (kMax L))

/-- The softmax over the sequence axis. -/
def kSoft (L : FVec Ideal S2048x1 .f32) : FVec Ideal S2048x1 .f32 :=
  divf (kExp L)
    (broadcastTo S2048x1 (shapeCast S1x1 (multiReduction .add [0] S1 (kExp L) 0x00000000#32 reduces_S2048x1_S1 (.inl rfl) rfl) shapeCasts_S1_S1x1) broadcasts_S1x1_S2048x1)

/-- The rows of the slab weighted by a column P and summed, as a [1, 1024] row. -/
def kPooled (P : FVec Ideal S2048x1 .f32) : FVec Ideal S1x1024 .f32 :=
  shapeCast S1x1024 (multiReduction .add [0] S1024 (mulf (broadcastTo S2048x1024 P broadcasts_S2048x1_S2048x1024) (k0_pay3 x0)) 0x00000000#32 reduces_S2048x1024_S1024 (.inl rfl) rfl) shapeCasts_S1024_S1x1024

/-- The body's softmax value is the softmax piece of the logit piece. -/
theorem pay4_eq : k0_pay4 (F := Ideal) x0 x1 x2 = kSoft (kLogit x0 x1 x2) := rfl

/-- The body's pooled value is the pooled piece of its softmax value. -/
theorem pay5_eq : k0_pay5 (F := Ideal) x0 x1 x2 = kPooled x0 (k0_pay4 (F := Ideal) x0 x1 x2) := rfl

/-! ## Each piece at an index -/

/-- The slab with its leading unit axis dropped. -/
theorem pay3_apply (s : Fin 2048) (d : Fin 1024) : k0_pay3 (F := Ideal) x0 (ix2 s d) = blkE x0 s d :=
  shapeCast_1ab_ab_apply x0 shapeCasts_S1x2048x1024_S2048x1024 s d

theorem kMean_apply (u : Fin 1) (e : Fin 1024) : kMean x0 (ix2 u e) = mean (blkE x0) e := by
  unfold kMean mean
  show Ideal.div _ _ = Ideal.div _ _
  refine congrArg₂ Ideal.div ?_ rfl
  refine (shapeCast_a_1a_apply _ _ u e).trans ?_
  refine (colSum_apply _ _ _ _ e).trans ?_
  exact Finset.sum_congr rfl fun s _ => pay3_apply x0 s e

theorem kQuery_apply (u : Fin 1) (d : Fin 1024) : kQuery x0 x2 (ix2 u d) = query (blkE x0) (blkW x2) d := by
  unfold kQuery query
  refine (transpose_ix2_apply _ _ u d).trans ?_
  refine (Cert.LibTileOps.shapeCast_col_apply _ _ d u).trans ?_
  refine (rowSum_apply _ _ _ _ d).trans ?_
  refine Finset.sum_congr rfl fun e _ => ?_
  show x2 (ix2 d e) * broadcastTo S1024x1024 (kMean x0) broadcasts_S1x1024_S1024x1024 (ix2 d e) = blkW x2 d e * mean (blkE x0) e
  rw [broadcastTo_1b_ab_apply, kMean_apply]
  rfl

theorem kMask_apply (s : Fin 2048) (u : Fin 1) : kMask x1 (ix2 s u) = blkMu x1 s := by
  obtain rfl : u = 0 := Subsingleton.elim _ _
  exact shapeCast_1ab_ab_apply x1 shapeCasts_S1x2048x1_S2048x1 s 0

theorem kLogit_apply (s : Fin 2048) (u : Fin 1) :
    kLogit x0 x1 x2 (ix2 s u) = logitQ (blkE x0) (blkMu x1) (blkW x2) s := by
  unfold kLogit logitQ bias
  show (shapeCast S2048x1 _ shapeCasts_S2048_S2048x1 (ix2 s u)) * kMask x1 (ix2 s u)
      + (Ideal.ofBits .f32 0x3F800000#32 - kMask x1 (ix2 s u)) * Ideal.ofBits .f32 0xCE6E6B28#32 = _
  rw [kMask_apply]
  refine congrArg (fun t => t * blkMu x1 s + (Ideal.ofBits .f32 0x3F800000#32 - blkMu x1 s) * Ideal.ofBits .f32 0xCE6E6B28#32) ?_
  refine (Cert.LibTileOps.shapeCast_col_apply _ _ s u).trans ?_
  refine (rowSum_apply _ _ _ _ s).trans ?_
  refine Finset.sum_congr rfl fun d _ => ?_
  show k0_pay3 (F := Ideal) x0 (ix2 s d) * broadcastTo S2048x1024 (kQuery x0 x2) broadcasts_S1x1024_S2048x1024 (ix2 s d) = _
  rw [pay3_apply, broadcastTo_1b_ab_apply, kQuery_apply]

theorem kMax_apply (L : FVec Ideal S2048x1 .f32) (s : Fin 2048) (u : Fin 1) :
    kMax L (ix2 s u) = rowMax (fun s' => L (ix2 s' (0 : Fin 1))) := by
  unfold kMax rowMax
  refine (Cert.LibTileOps.broadcastTo_one _ _ (by decide) (ix2 s u) (ix2 (0 : Fin 1) (0 : Fin 1))).trans ?_
  refine (Cert.LibTileOps.shapeCast_one _ _ (by decide) (ix2 (0 : Fin 1) (0 : Fin 1)) (ix1 (0 : Fin 1))).trans ?_
  exact colMax1_apply _ _ _ _ (ix1 (0 : Fin 1))

theorem kExp_apply (L : FVec Ideal S2048x1 .f32) (s : Fin 2048) (u : Fin 1) :
    kExp L (ix2 s u) = expShift (fun s' => L (ix2 s' (0 : Fin 1))) s := by
  obtain rfl : u = 0 := Subsingleton.elim _ _
  unfold kExp expShift
  show Ideal.exp (L (ix2 s 0) - kMax L (ix2 s 0)) = _
  rw [kMax_apply]

theorem kSoft_apply (L : FVec Ideal S2048x1 .f32) (s : Fin 2048) (u : Fin 1) :
    kSoft L (ix2 s u) = soft (fun s' => L (ix2 s' (0 : Fin 1))) s := by
  unfold kSoft soft
  show Ideal.div (kExp L (ix2 s u)) _ = Ideal.div _ _
  rw [kExp_apply]
  refine congrArg (Ideal.div _) ?_
  refine (Cert.LibTileOps.broadcastTo_one _ _ (by decide) (ix2 s u) (ix2 (0 : Fin 1) (0 : Fin 1))).trans ?_
  refine (Cert.LibTileOps.shapeCast_one _ _ (by decide) (ix2 (0 : Fin 1) (0 : Fin 1)) (ix1 (0 : Fin 1))).trans ?_
  refine (colSum1_apply _ _ _ _ (ix1 (0 : Fin 1))).trans ?_
  exact Finset.sum_congr rfl fun s' _ => kExp_apply L s' 0

theorem kPooled_apply (P : FVec Ideal S2048x1 .f32) (u : Fin 1) (d : Fin 1024) :
    kPooled x0 P (ix2 u d) = ∑ s : Fin 2048, P (ix2 s (0 : Fin 1)) * blkE x0 s d := by
  unfold kPooled
  refine (shapeCast_a_1a_apply _ _ u d).trans ?_
  refine (colSum_apply _ _ _ _ d).trans ?_
  refine Finset.sum_congr rfl fun s _ => ?_
  show broadcastTo S2048x1024 P broadcasts_S2048x1_S2048x1024 (ix2 s d) * k0_pay3 (F := Ideal) x0 (ix2 s d) = _
  rw [Cert.LibLayout.broadcastTo_a1_ab_apply, pay3_apply]

/-! ## The two stored values -/

/-- The body's softmax value at row s. -/
theorem pay4_apply (s : Fin 2048) (u : Fin 1) :
    k0_pay4 (F := Ideal) x0 x1 x2 (ix2 s u) = soft (logitQ (blkE x0) (blkMu x1) (blkW x2)) s := by
  rw [pay4_eq, kSoft_apply]
  exact congrArg (fun L => soft L s) (funext fun s' => kLogit_apply x0 x1 x2 s' 0)

/-- The body's pooled value at column d. -/
theorem pay5_apply (u : Fin 1) (d : Fin 1024) :
    k0_pay5 (F := Ideal) x0 x1 x2 (ix2 u d) = pooled (blkE x0) (logitQ (blkE x0) (blkMu x1) (blkW x2)) d := by
  rw [pay5_eq, kPooled_apply]
  unfold pooled
  exact Finset.sum_congr rfl fun s _ => congrArg (· * blkE x0 s d) (pay4_apply x0 x1 x2 s 0)

/-- What the body stores to the softmax window, at (0, s, 0). -/
theorem store_soft_apply (z : Fin 1) (s : Fin 2048) (u : Fin 1) :
    k0_pay2 (F := Ideal) (k0_pay4 (F := Ideal) x0 x1 x2) (ix3 z s u)
      = soft (logitQ (blkE x0) (blkMu x1) (blkW x2)) s :=
  (shapeCast_ab_1ab_apply _ shapeCasts_S2048x1_S1x2048x1 z s u).trans (pay4_apply x0 x1 x2 s u)

/-- What the body stores to the pooled window, at (0, 0, d). -/
theorem store_pooled_apply (z : Fin 1) (u : Fin 1) (d : Fin 1024) :
    k0_pay1 (F := Ideal) (k0_pay5 (F := Ideal) x0 x1 x2) (ix3 z u d)
      = pooled (blkE x0) (logitQ (blkE x0) (blkMu x1) (blkW x2)) d :=
  (shapeCast_ab_1ab_apply _ shapeCasts_S1x1024_S1x1x1024 z u d).trans (pay5_apply x0 x1 x2 u d)

end Cert.KerPayload

end
-- ==== Proof.KerArrays.lean ====
/-
  The kernel program's two results as whole arrays.

  Grid point t works on batch t: its three input blocks are the slab t of the embeddings, row t of the mask column
  array, and the whole weight matrix, and it writes back block t of the two output arrays.  By the body's reading
  (the payload module), what point t writes back is block t of ONE function of the arrays as the region finds them:
  the softmax weights, and the pooled rows, of batch t.  The 32 blocks tile each output array, so after the run each
  array is that function.  Before the region the host turns the mask bits into the numbers 0 and 1 and views them as a
  [32, 2048, 1] column array; after the region it views the [32, 1, 1024] pooled array as [32, 1024].
-/
import proofs.«129989_j3058016715095_2_alg».proof.Proof.Gen.KernelIdeal.Frame
import proofs.«129989_j3058016715095_2_alg».proof.Proof.KerPayload
import proofs.«129989_j3058016715095_2_alg».proof.Proof.AttnArrays
import Idealize.ShloMosaic.Lib.Pipeline.Value
import Idealize.ShloMosaic.Lib.StableHlo.Run
import Idealize.ShloMosaic.Lib.Tactic

noncomputable section

namespace Cert.KerArrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.AttnSpec Cert.AttnArrays Cert.KerPayload

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 points: point t sits at block (t, 0, 0) of every batched array and at
    block (0, 0) of the weights. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The batch a grid point works on. -/
def bOf (t : Fin cfg0.N) : Fin 32 := ⟨t.val, by have h := t.isLt; have hN : cfg0.N = 32 := N_0; omega⟩

/-! ## The input blocks, read off the arrays as the region finds them -/

theorem iblk0_apply (c : Dev nD) (t : Fin cfg0.N) (z : Fin 1) (s : Fin 2048) (d : Fin 1024) :
    (iblk m c 0 t : Vec Ideal S1x2048x1024 .f32) (ix3 z s d)
      = (V m c main_arg0 : S32x2048x1024.Idx → EReal) (ix3 (bOf t) s d) := by
  obtain ⟨e0, e1, e2, -⟩ := idx_facts t
  show V m c main_arg0 (((cfg0.win 0).blk t).view.emb (ix3 z s d)) = V m c main_arg0 (ix3 (bOf t) s d)
  refine congrArg (V m c main_arg0) ?_
  funext a; apply Fin.ext
  have hz : z.val < 1 := z.isLt
  match a with
  | ⟨0, _⟩ => show win0_0.index t (0 : Fin 3) * 1 + 1 * z.val = t.val; rw [e0]; omega
  | ⟨1, _⟩ => show win0_0.index t (1 : Fin 3) * 2048 + 1 * s.val = s.val; rw [e1]; omega
  | ⟨2, _⟩ => show win0_0.index t (2 : Fin 3) * 1024 + 1 * d.val = d.val; rw [e2]; omega

theorem iblk1_apply (c : Dev nD) (t : Fin cfg0.N) (z : Fin 1) (s : Fin 2048) (u : Fin 1) :
    (iblk m c 1 t : Vec Ideal S1x2048x1 .f32) (ix3 z s u)
      = (V m c main_v1 : S32x2048x1.Idx → EReal) (ix3 (bOf t) s u) := by
  obtain ⟨-, -, -, e0, e1, e2, -⟩ := idx_facts t
  show V m c main_v1 (((cfg0.win 1).blk t).view.emb (ix3 z s u)) = V m c main_v1 (ix3 (bOf t) s u)
  refine congrArg (V m c main_v1) ?_
  funext a; apply Fin.ext
  have hz : z.val < 1 := z.isLt
  match a with
  | ⟨0, _⟩ => show win0_1.index t (0 : Fin 3) * 1 + 1 * z.val = t.val; rw [e0]; omega
  | ⟨1, _⟩ => show win0_1.index t (1 : Fin 3) * 2048 + 1 * s.val = s.val; rw [e1]; omega
  | ⟨2, _⟩ => show win0_1.index t (2 : Fin 3) * 1 + 1 * u.val = u.val; rw [e2]; omega

theorem iblk2_apply (c : Dev nD) (t : Fin cfg0.N) (d : Fin 1024) (e : Fin 1024) :
    (iblk m c 2 t : Vec Ideal S1024x1024 .f32) (ix2 d e)
      = (V m c main_arg2 : S1024x1024.Idx → EReal) (ix2 d e) := by
  obtain ⟨-, -, -, -, -, -, e0, e1, -⟩ := idx_facts t
  show V m c main_arg2 (((cfg0.win 2).blk t).view.emb (ix2 d e)) = V m c main_arg2 (ix2 d e)
  refine congrArg (V m c main_arg2) ?_
  funext a; apply Fin.ext
  match a with
  | ⟨0, _⟩ => show win0_2.index t (0 : Fin 2) * 1024 + 1 * d.val = d.val; rw [e0]; omega
  | ⟨1, _⟩ => show win0_2.index t (1 : Fin 2) * 1024 + 1 * e.val = e.val; rw [e1]; omega

/-! ## The logits from the arrays at region entry -/

/-- Batch b's mask column, read off the [32, 2048, 1] column array. -/
def colMask (A1 : (⟨3, ![32, 2048, 1]⟩ : Shape).Idx → EReal) (b : Fin 32) : Fin 2048 → EReal :=
  fun s => A1 (ix3 b s (0 : Fin 1))

/-- The logits of every batch, from the three arrays the region finds. -/
def logitsK (A0 : (⟨3, ![32, 2048, 1024]⟩ : Shape).Idx → EReal) (A1 : (⟨3, ![32, 2048, 1]⟩ : Shape).Idx → EReal)
    (A2 : (⟨2, ![1024, 1024]⟩ : Shape).Idx → EReal) (b : Fin 32) : Fin 2048 → EReal :=
  logitQ (slab A0 b) (colMask A1 b) (weights A2)

theorem blkE_iblk (c : Dev nD) (t : Fin cfg0.N) :
    blkE (iblk m c 0 t) = slab (V m c main_arg0) (bOf t) :=
  funext fun s => funext fun d => iblk0_apply m c t 0 s d

theorem blkMu_iblk (c : Dev nD) (t : Fin cfg0.N) :
    blkMu (iblk m c 1 t) = colMask (V m c main_v1) (bOf t) :=
  funext fun s => iblk1_apply m c t 0 s 0

theorem blkW_iblk (c : Dev nD) (t : Fin cfg0.N) :
    blkW (iblk m c 2 t) = weights (V m c main_arg2) :=
  funext fun d => funext fun e => iblk2_apply m c t d e

/-- Point t's logits are batch t's. -/
theorem logit_iblk (c : Dev nD) (t : Fin cfg0.N) :
    logitQ (blkE (iblk m c 0 t)) (blkMu (iblk m c 1 t)) (blkW (iblk m c 2 t))
      = logitsK (V m c main_arg0) (V m c main_v1) (V m c main_arg2) (bOf t) := by
  rw [blkE_iblk, blkMu_iblk, blkW_iblk]
  rfl

/-! ## The softmax-weights array (output window 4) -/

/-- What the second result array ends holding. -/
def softK (c : Dev nD) : (⟨3, ![32, 2048, 1]⟩ : Shape).Idx → EReal :=
  softArr (logitsK (V m c main_arg0) (V m c main_v1) (V m c main_arg2))

theorem flushed4_eq (c : Dev nD) (t : Fin cfg0.N) :
    (dats m 0 c).flushed 4 t = ((cfg0.win 4).blk t).view.read (Elt Ideal) (softK m c) := by
  show (cfg0.win 4).cut (grid0.coords t) ((dats m 0 c).after 4 t) = _
  rw [after0_4]
  unfold out0_4
  rw [View.canon_unit_zero hz3]
  simp only [View.ld_unit_zero (S := S1x2048x1024) hz3, View.ld_unit_zero (S := S1x2048x1) hz3,
    View.ld_unit_zero (S := S1024x1024) hz2]
  funext j
  obtain ⟨z, s, u, rfl⟩ : ∃ (z : Fin 1) (s : Fin 2048) (u : Fin 1), j = ix3 z s u := ⟨j 0, j 1, j 2, eq_ix3 j⟩
  show k0_pay2 (F := Ideal) (k0_pay4 (F := Ideal) (iblk m c 0 t) (iblk m c 1 t) (iblk m c 2 t)) (ix3 z s u)
      = softK m c (((cfg0.win 4).blk t).view.emb (ix3 z s u))
  refine (store_soft_apply (iblk m c 0 t) (iblk m c 1 t) (iblk m c 2 t) z s u).trans ?_
  rw [logit_iblk]
  obtain ⟨-, -, -, -, -, -, -, -, -, -, -, e0, e1, e2⟩ := idx_facts t
  have hemb : ((cfg0.win 4).blk t).view.emb (ix3 z s u) = ix3 (bOf t) s u := by
    funext a; apply Fin.ext
    have hz : z.val < 1 := z.isLt
    match a with
    | ⟨0, _⟩ => show win0_4.index t (0 : Fin 3) * 1 + 1 * z.val = t.val; rw [e0]; omega
    | ⟨1, _⟩ => show win0_4.index t (1 : Fin 3) * 2048 + 1 * s.val = s.val; rw [e1]; omega
    | ⟨2, _⟩ => show win0_4.index t (2 : Fin 3) * 1 + 1 * u.val = u.val; rw [e2]; omega
  rw [hemb]
  rfl

theorem mem_blk4 (t : Fin cfg0.N) (i : S32x2048x1.Idx) :
    i ∈ ((cfg0.win 4).blk t).view.set ↔ ∀ a : Fin 3, win0_4.index t a * S1x2048x1.size a ≤ (i a).val
      ∧ (i a).val < win0_4.index t a * S1x2048x1.size a + S1x2048x1.size a := by
  show i ∈ ((View.whole main_v2_1).slice (win0_4.rect t)).set ↔ _
  rw [View.set_slice_whole, Rect.mem_set_unit]
  exact Iff.rfl

theorem cover4 (i : S32x2048x1.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 1 := (i 2).isLt
  have hN : cfg0.N = 32 := N_0
  refine ⟨⟨(i 0).val, by omega⟩, flush0_4 _, ?_⟩
  rw [mem_blk4]
  obtain ⟨-, -, -, -, -, -, -, -, -, -, -, e0, e1, e2⟩ := idx_facts ⟨(i 0).val, by omega⟩
  intro a
  match a with
  | ⟨0, _⟩ =>
    show win0_4.index _ (0 : Fin 3) * 1 ≤ (i 0).val ∧ (i 0).val < win0_4.index _ (0 : Fin 3) * 1 + 1
    rw [e0]; show (i 0).val * 1 ≤ (i 0).val ∧ (i 0).val < (i 0).val * 1 + 1; omega
  | ⟨1, _⟩ =>
    show win0_4.index _ (1 : Fin 3) * 2048 ≤ (i 1).val ∧ (i 1).val < win0_4.index _ (1 : Fin 3) * 2048 + 2048
    rw [e1]; omega
  | ⟨2, _⟩ =>
    show win0_4.index _ (2 : Fin 3) * 1 ≤ (i 2).val ∧ (i 2).val < win0_4.index _ (2 : Fin 3) * 1 + 1
    rw [e2]; omega

/-- The second result array after the run. -/
theorem final4 (c : Dev nD) : (dats m 0 c).arrAt 4 cfg0.N = softK m c :=
  (dats m 0 c).arrAt_eq_of_cover 4 (softK m c) (fun t _ => flushed4_eq m c t) cover4

/-! ## The pooled array (output window 3) -/

/-- What the [32, 1, 1024] pooled array ends holding. -/
def pooledK (c : Dev nD) : (⟨3, ![32, 1, 1024]⟩ : Shape).Idx → EReal :=
  fun i => pooled (slab (V m c main_arg0) ⟨(i 0).val, (i 0).isLt⟩)
    (logitsK (V m c main_arg0) (V m c main_v1) (V m c main_arg2) ⟨(i 0).val, (i 0).isLt⟩) ⟨(i 2).val, (i 2).isLt⟩

theorem flushed3_eq (c : Dev nD) (t : Fin cfg0.N) :
    (dats m 0 c).flushed 3 t = ((cfg0.win 3).blk t).view.read (Elt Ideal) (pooledK m c) := by
  show (cfg0.win 3).cut (grid0.coords t) ((dats m 0 c).after 3 t) = _
  rw [after0_3]
  unfold out0_3
  rw [View.canon_unit_zero hz3]
  simp only [View.ld_unit_zero (S := S1x2048x1024) hz3, View.ld_unit_zero (S := S1x2048x1) hz3,
    View.ld_unit_zero (S := S1024x1024) hz2]
  funext j
  obtain ⟨z, u, d, rfl⟩ : ∃ (z : Fin 1) (u : Fin 1) (d : Fin 1024), j = ix3 z u d := ⟨j 0, j 1, j 2, eq_ix3 j⟩
  show k0_pay1 (F := Ideal) (k0_pay5 (F := Ideal) (iblk m c 0 t) (iblk m c 1 t) (iblk m c 2 t)) (ix3 z u d)
      = pooledK m c (((cfg0.win 3).blk t).view.emb (ix3 z u d))
  refine (store_pooled_apply (iblk m c 0 t) (iblk m c 1 t) (iblk m c 2 t) z u d).trans ?_
  rw [logit_iblk, blkE_iblk]
  obtain ⟨-, -, -, -, -, -, -, -, e0, e1, e2, -⟩ := idx_facts t
  have hemb : ((cfg0.win 3).blk t).view.emb (ix3 z u d) = ix3 (bOf t) u d := by
    funext a; apply Fin.ext
    have hz : z.val < 1 := z.isLt
    match a with
    | ⟨0, _⟩ => show win0_3.index t (0 : Fin 3) * 1 + 1 * z.val = t.val; rw [e0]; omega
    | ⟨1, _⟩ => show win0_3.index t (1 : Fin 3) * 1 + 1 * u.val = u.val; rw [e1]; omega
    | ⟨2, _⟩ => show win0_3.index t (2 : Fin 3) * 1024 + 1 * d.val = d.val; rw [e2]; omega
  rw [hemb]
  rfl

theorem mem_blk3 (t : Fin cfg0.N) (i : S32x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v2_0).slice (win0_3.rect t)).set ↔ _
  rw [View.set_slice_whole, Rect.mem_set_unit]
  exact Iff.rfl

theorem cover3 (i : S32x1x1024.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 1024 := (i 2).isLt
  have hN : cfg0.N = 32 := N_0
  refine ⟨⟨(i 0).val, by omega⟩, flush0_3 _, ?_⟩
  rw [mem_blk3]
  obtain ⟨-, -, -, -, -, -, -, -, e0, e1, e2, -⟩ := idx_facts ⟨(i 0).val, by omega⟩
  intro a
  match a with
  | ⟨0, _⟩ =>
    show win0_3.index _ (0 : Fin 3) * 1 ≤ (i 0).val ∧ (i 0).val < win0_3.index _ (0 : Fin 3) * 1 + 1
    rw [e0]; show (i 0).val * 1 ≤ (i 0).val ∧ (i 0).val < (i 0).val * 1 + 1; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 1024 ≤ (i 2).val ∧ (i 2).val < win0_3.index _ (2 : Fin 3) * 1024 + 1024
    rw [e2]; omega

/-- The pooled array after the region. -/
theorem final3 (c : Dev nD) : (dats m 0 c).arrAt 3 cfg0.N = pooledK m c :=
  (dats m 0 c).arrAt_eq_of_cover 3 (pooledK m c) (fun t _ => flushed3_eq m c t) cover3

/-! ## The host lines around the region -/

/-- Before the region: the mask bits as numbers, viewed as a column array. -/
theorem V_main_v1 (c : Dev nD) : (V m c main_v1 : S32x2048x1.Idx → EReal)
    = broadcastInDim S32x2048x1 ![0, 1] bcast_S32x2048_S32x2048x1_0_1
        (uitofp (F := Ideal) .f32 (m ((c.tc : Thread nD τ).loc main_arg1))) := by
  dsimp only [V, V0]
  simp only [hostOps0, List.flatten_cons, List.flatten_nil, List.append_nil, List.cons_append, List.nil_append]
  after_results

/-- So batch b's mask column is row b of the mask, bit by bit. -/
theorem colMask_entry (c : Dev nD) (b : Fin 32) :
    colMask (V m c main_v1) b = maskRow (m ((c.tc : Thread nD τ).loc main_arg1)) b := by
  funext s
  show (V m c main_v1 : S32x2048x1.Idx → EReal) (ix3 b s (0 : Fin 1)) = _
  rw [V_main_v1]
  exact broadcastInDim_apply _ bcast_S32x2048_S32x2048x1_0_1 _ (ix3 b s (0 : Fin 1)) (ix2 b s) (fun a =>
    match a with
    | ⟨0, _⟩ => by show b.val = if (32 : Nat) = 1 then 0 else b.val; rw [if_neg (by decide)]
    | ⟨1, _⟩ => by show s.val = if (2048 : Nat) = 1 then 0 else s.val; rw [if_neg (by decide)])

/-- The region's logits are the specification's, of the arguments as launched. -/
theorem logitsK_entry (c : Dev nD) :
    logitsK (V m c main_arg0) (V m c main_v1) (V m c main_arg2)
      = logitsQ (m ((c.tc : Thread nD τ).loc main_arg0)) (m ((c.tc : Thread nD τ).loc main_arg1))
          (m ((c.tc : Thread nD τ).loc main_arg2)) := by
  funext b
  unfold logitsK logitsQ
  rw [colMask_entry, V_main_arg0, V_main_arg2]

/-- After the region: the [32, 1, 1024] pooled array viewed as [32, 1024]. -/
theorem tail_main_v3 (c : Dev nD) :
    Pipeline.afterTail₀ cfgs (dats m) 0 (V0 m) [hostOps1] c main_v3
      = pooledArr (m ((c.tc : Thread nD τ).loc main_arg0))
          (logitsQ (m ((c.tc : Thread nD τ).loc main_arg0)) (m ((c.tc : Thread nD τ).loc main_arg1))
            (m ((c.tc : Thread nD τ).loc main_arg2))) := by
  unfold Pipeline.afterTail₀
  show StableHlo.after hostOps1 _ (Proc.devRef .tc main_v3) = _
  after_results
  have hA : Pipeline.withArrays (cfgs 0).spec c (V0 m c) (fun w => (dats m 0 c).arrAt w (cfgs 0).N)
      (Proc.devRef .tc main_v2_0) = pooledK m c :=
    (Pipeline.withArrays_arr spec0 launch0.win.arr_inj c _ _ 3).trans (final3 m c)
  funext i
  obtain ⟨b, d, rfl⟩ : ∃ (b : Fin 32) (d : Fin 1024), i = ix2 b d := ⟨i 0, i 1, eq_ix2 i⟩
  show shapeCast S32x1024 (Pipeline.withArrays (cfgs 0).spec c (V0 m c) (fun w => (dats m 0 c).arrAt w (cfgs 0).N)
      (Proc.devRef .tc main_v2_0)) shapeCasts_S32x1x1024_S32x1024 (ix2 b d) = _
  rw [hA]
  refine (Cert.LibLayout.shapeCast_abc_dc_apply (pooledK m c) shapeCasts_S32x1x1024_S32x1024 b d b (0 : Fin 1)
    (by simp)).trans ?_
  show pooled (slab (V m c main_arg0) b) (logitsK (V m c main_arg0) (V m c main_v1) (V m c main_arg2) b) d = _
  rw [logitsK_entry, V_main_arg0]
  rfl

/-- The second result, of the arguments as launched. -/
theorem final4_entry (c : Dev nD) :
    (dats m 0 c).arrAt 4 cfg0.N
      = softArr (logitsQ (m ((c.tc : Thread nD τ).loc main_arg0)) (m ((c.tc : Thread nD τ).loc main_arg1))
          (m ((c.tc : Thread nD τ).loc main_arg2))) := by
  rw [final4]
  unfold softK
  rw [logitsK_entry]

/-! ## The run, read -/

/-- Every weakly fair execution of the kernel program ends with its two results at the specification's arrays of the
    arguments as launched, bracketed "matrix-vector product first", and the arguments unchanged. -/
theorem run : θ_run defs (onTc (τ := τ) (main (F := Ideal))) ⟨m, fun _ => 0, ρ⟩ fun r => ∀ c : Dev nD,
      r.2.mem ((c.tc : Thread nD τ).loc main_v3)
        = pooledArr (m ((c.tc : Thread nD τ).loc main_arg0))
            (logitsQ (m ((c.tc : Thread nD τ).loc main_arg0)) (m ((c.tc : Thread nD τ).loc main_arg1))
              (m ((c.tc : Thread nD τ).loc main_arg2)))
      ∧ r.2.mem ((c.tc : Thread nD τ).loc main_v2_1)
        = softArr (logitsQ (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_main_v3 m c),
      ((h c).1 4).trans (final4_entry m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KerArrays

end
-- ==== Proof.lean ====
/-
  Masked single-query attention: a Pallas kernel against its jnp reference, equal over the extended reals.

  Both programs take embeddings E [32, 2048, 1024], a mask [32, 2048] of bits and weights W [1024, 1024], and return,
  per batch, the softmax over the sequence of the logits

      logit s = (bilinear form of row s of E, W and the column means ys of E) * mask s + (1 - mask s) * (-1e9)

  and the softmax-weighted sum of the rows of E.  The kernel brackets the bilinear form as
  sum_d E s d * (sum_e W d e * ys e) — a matrix-vector product, then a dot product per row — where the reference
  computes the full product E W, masks it, and contracts it with ys.  On real numbers the two agree by distributivity
  and an exchange of two finite sums; the precondition (every float input finite) makes E and W real, the mask is the
  numbers 0 and 1, and the means are then real.  The softmax and the weighted sum are the same function of the logits
  on both sides (the reference's extra maximum with minus infinity changes nothing).

  The proof: the kernel program's run ends with its two result arrays at the specification's arrays with the logits in
  the kernel's bracketing; the reference's run ends at the same arrays with the logits in the reference's bracketing;
  under the precondition the two families of logits are one.  The frames are the programs' runs with the results
  dropped, and no operation was rewritten when the kernel was idealized, so nothing is owed for that step.
-/
import proofs.«129989_j3058016715095_2_alg».proof.Defs
import proofs.«129989_j3058016715095_2_alg».proof.Proof.Gen.Kernel
import proofs.«129989_j3058016715095_2_alg».proof.Proof.Gen.Kernel.Skeleton
import proofs.«129989_j3058016715095_2_alg».proof.Proof.Gen.Kernel.Launch
import proofs.«129989_j3058016715095_2_alg».proof.Proof.Gen.Kernel.Points
import proofs.«129989_j3058016715095_2_alg».proof.Proof.Gen.Kernel.Frame
import proofs.«129989_j3058016715095_2_alg».proof.Proof.Gen.KernelIdeal
import proofs.«129989_j3058016715095_2_alg».proof.Proof.Gen.KernelIdeal.Skeleton
import proofs.«129989_j3058016715095_2_alg».proof.Proof.Gen.KernelIdeal.Launch
import proofs.«129989_j3058016715095_2_alg».proof.Proof.Gen.KernelIdeal.Points
import proofs.«129989_j3058016715095_2_alg».proof.Proof.Gen.KernelIdeal.Frame
import proofs.«129989_j3058016715095_2_alg».proof.Proof.Gen.ReferenceIdeal
import proofs.«129989_j3058016715095_2_alg».proof.Proof.Gen.ReferenceIdeal.Run
import proofs.«129989_j3058016715095_2_alg».proof.Proof.Gen.ReferenceIdeal.Read
import proofs.«129989_j3058016715095_2_alg».proof.Proof.Gen.Pre_finite_inputs
import proofs.«129989_j3058016715095_2_alg».proof.Proof.AttnArrays
import proofs.«129989_j3058016715095_2_alg».proof.Proof.FiniteInputs
import proofs.«129989_j3058016715095_2_alg».proof.Proof.RefRead
import proofs.«129989_j3058016715095_2_alg».proof.Proof.KerArrays
import Idealize.ShloMosaic.Adequacy
import Idealize.ShloMosaic.Init

noncomputable section

namespace Cert.Proof

open Idealize.ShloMosaic Idealize.SL.Sem Cert.AttnArrays

/-- The kernel program as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Idealizing the kernel rewrote no operation. -/
theorem preserves : Cert.preserves_Kernel_KernelIdeal := trivial

/-- From memories agreeing on the arguments both idealized programs end with the pooled array and the softmax-weights
    array of the specification: the kernel's with the logits bracketed its way, the reference's with the logits
    bracketed the other way, and under the precondition the two families of logits are one. -/
theorem algebraic : Cert.algebraic_KernelIdeal_ReferenceIdeal := by
  intro m ρ m' ρ' hpre hagree
  refine ⟨fun c => pooledArr (m ((c.tc : Thread Cert.KernelIdeal.nD Cert.KernelIdeal.τ).loc Cert.KernelIdeal.main_arg0))
      (logitsQ (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    fun c => softArr (logitsQ (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.KerArrays.run m ρ, ?_⟩
  refine (θ_run Cert.ReferenceIdeal.defs _ _).mono (fun _ h c => ?_)
    (Cert.ReferenceIdeal.Value.run (F := Ideal) m' ρ')
  obtain ⟨hA, hW⟩ := Cert.FiniteInputs.entries_real _ _ _ (hpre c)
  have hL := logitsQ_eq_logitsP _ (m ((c.tc : Thread Cert.KernelIdeal.nD Cert.KernelIdeal.τ).loc Cert.KernelIdeal.main_arg1)) _ hA hW
  refine ⟨(h c).1.trans ?_, (h c).2.1.trans ?_, (h c).2.2⟩
  · rw [Cert.ReferenceIdeal.Read.val_main_v32_eq, Cert.RefRead.pooled_eq, (hagree c).1, (hagree c).2.1,
      (hagree c).2.2]
    exact congrArg (pooledArr _) hL.symm
  · rw [Cert.ReferenceIdeal.Read.val_main_v29_eq, Cert.RefRead.soft_eq, (hagree c).1, (hagree c).2.1,
      (hagree c).2.2]
    exact congrArg softArr hL.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
